-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2048 : Shape := ⟨2, ![8192, 2048]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192x2048 .f32) (main_arg2 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x4096 : Shape := ⟨2, ![8192, 4096]⟩
abbrev S8192x2048 : Shape := ⟨2, ![8192, 2048]⟩
abbrev S8192 : Shape := ⟨1, ![8192]⟩
abbrev S8192x2048x2 : Shape := ⟨3, ![8192, 2048, 2]⟩
abbrev S8192x2048x1 : Shape := ⟨3, ![8192, 2048, 1]⟩
abbrev S4096x2048 : Shape := ⟨2, ![4096, 2048]⟩
abbrev S4096 : Shape := ⟨1, ![4096]⟩
abbrev S1x4096 : Shape := ⟨2, ![1, 4096]⟩
abbrev S8192x8192 : Shape := ⟨2, ![8192, 8192]⟩
abbrev S2048x2048 : Shape := ⟨2, ![2048, 2048]⟩
abbrev S512x2048 : Shape := ⟨2, ![512, 2048]⟩
abbrev S1x512 : Shape := ⟨2, ![1, 512]⟩
abbrev S2048x1024 : Shape := ⟨2, ![2048, 1024]⟩
abbrev S2048x512 : Shape := ⟨2, ![2048, 512]⟩
abbrev S2048x512x1 : Shape := ⟨3, ![2048, 512, 1]⟩
abbrev S2048x512x2 : Shape := ⟨3, ![2048, 512, 2]⟩
abbrev S8192x8192x1 : Shape := ⟨3, ![8192, 8192, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192, .f32⟩
  | .hbm, ⟨3, _⟩ => ⟨S8192x2048x2, .f32⟩
  | .hbm, ⟨4, _⟩ => ⟨S8192x2048x1, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S4096x2048, .bf16⟩
  | .hbm, ⟨9, _⟩ => ⟨S4096x2048, .bf16⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S8192x8192, .f32⟩
  | .hbm, ⟨15, _⟩ => ⟨S8192x8192x1, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x1024, .f32⟩
  | .local _ .vmem, ⟨11, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x4096_S8192x2048x2 : S8192x4096.ShapeCasts S8192x2048x2
  slices_S8192x2048x2_S8192x2048x1_0_0_1 : S8192x2048x2.Slices ![0, 0, 1] S8192x2048x1
  shapeCasts_S8192x2048x1_S8192x2048 : S8192x2048x1.ShapeCasts S8192x2048
  bitsLt_bf16_f32 : FTy.bits .bf16 < FTy.bits .f32
  slices_S8192x2048_S4096x2048_0_0 : S8192x2048.Slices ![0, 0] S4096x2048
  slices_S8192x2048_S4096x2048_4096_0 : S8192x2048.Slices ![4096, 0] S4096x2048
  slices_S8192_S4096_0 : S8192.Slices ![0] S4096
  shapeCasts_S4096_S1x4096 : S4096.ShapeCasts S1x4096
  slices_S8192_S4096_4096 : S8192.Slices ![4096] S4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S2048x512x1 : S2048x512.ShapeCasts S2048x512x1
  concatenates_S2048x512x1_S2048x512x1_S2048x512x2_d2 : Shape.Concatenates [S2048x512x1, S2048x512x1] S2048x512x2 2
  shapeCasts_S2048x512x2_S2048x1024 : S2048x512x2.ShapeCasts S2048x1024
  inb_S2048x1024_S2048x1024_0_0 : ∀ a, (![0, 0] : Fin 2 → Nat) a + S2048x1024.size a ≤ S2048x1024.size a
  h_S2048x1024 : 0 < S2048x1024.numel
  shapeCasts_S8192x8192_S8192x8192x1 : S8192x8192.ShapeCasts S8192x8192x1
  dot_S2048x2048_S512x2048_S2048x512_1_1_0_0_n_n_wf : DotDims.WF S2048x2048 S512x2048 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x8192.size a
  hwx0_5 : ∀ i : grid0.Coords, EltTy.bits .f32 = 32 ∨ (Rect.block (s := S8192x8192) S2048x1024.size (cc0_transform_5 i) (hinb0_5 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf

abbrev win0_0 : Pipeline.Window sig grid0 :=
  Pipeline.Window.ofSpec (Memref.whole main_v3) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2048 : Shape := ⟨2, ![8192, 2048]⟩
abbrev S8192 : Shape := ⟨1, ![8192]⟩
abbrev S8192x2048x2 : Shape := ⟨3, ![8192, 2048, 2]⟩
abbrev S8192x2048x1 : Shape := ⟨3, ![8192, 2048, 1]⟩
abbrev S8192x8192 : Shape := ⟨2, ![8192, 8192]⟩
abbrev S1x8192 : Shape := ⟨2, ![1, 8192]⟩
abbrev S_ : Shape := ⟨0, ![]⟩
abbrev S8192x4096x1 : Shape := ⟨3, ![8192, 4096, 1]⟩
abbrev S8192x4096x2 : Shape := ⟨3, ![8192, 4096, 2]⟩
abbrev S8192x8192x1 : Shape := ⟨3, ![8192, 8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192, .f32⟩
  | .hbm, ⟨3, _⟩ => ⟨S8192x2048x2, .f32⟩
  | .hbm, ⟨4, _⟩ => ⟨S8192x2048x1, .f32⟩
  | .hbm, ⟨5, _⟩ => ⟨S8192x2048, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096x1, .f32⟩
  | .hbm, ⟨19, _⟩ => ⟨S8192x4096x1, .f32⟩
  | .hbm, ⟨20, _⟩ => ⟨S8192x4096x2, .f32⟩
  | .hbm, ⟨21, _⟩ => ⟨S8192x8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S8192x4096_S8192x2048x2 : S8192x4096.ShapeCasts S8192x2048x2
  slices_S8192x2048x2_S8192x2048x1_0_0_1 : S8192x2048x2.Slices ![0, 0, 1] S8192x2048x1
  shapeCasts_S8192x2048x1_S8192x2048 : S8192x2048x1.ShapeCasts S8192x2048
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S8192x8192_S8192x4096_0_0 : S8192x8192.Slices ![0, 0] S8192x4096
  slices_S8192x8192_S8192x4096_0_4096 : S8192x8192.Slices ![0, 4096] S8192x4096
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192x1 : S8192x4096x2.ShapeCasts S8192x8192x1
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The folded dense layer, as one function of the three argument arrays

Read at the ideal values (every float an extended real, every operation exact, a change of float format the
identity), both programs compute, from `x : [8192, 4096]`, `w : [8192, 2048]` and `bias : [8192]`:

* the "imaginary" half of a sample, `x (b, 2k+1)` for `k < 2048` (the odd columns);
* the dense layer with a ReLU, `act b d = max (∑ k, x (b, 2k+1) · w (d, k) + bias d) 0` for `d < 8192`;
* the fold of its two halves, `act b n − act b (4096 + n)` for `n < 4096`;
* the result interleaved with a zero channel: column `2n` of row `b` holds the fold at `n`, column `2n+1` holds `0`.

This module states that function, over literal shapes and with no program imported, for the `[8192, 8192]` array a
kernel writes (`fold2`) and for the `[8192, 8192, 1]` result with its trailing unit axis (`fold3`). The zero is kept as
the value of the zero word, the same on both sides, and is never evaluated.
-/

noncomputable section

namespace Cert.FoldSpec

open Idealize.ShloMosaic Idealize.ShloMosaic.ValueIdx

/-- The value of the `f32` zero word. -/
abbrev zero32 : EReal := Ideal.ofBits .f32 0x00000000#32

/-- The odd column `2k+1` of a row of width 4096. -/
abbrev oddCol (k : Fin 2048) : Fin 4096 := ⟨2 * k.val + 1, by have := k.isLt; omega⟩

/-- Half a column index of a row of width 8192: the unit of the fold it belongs to. -/
abbrev halfCol (c : Fin 8192) : Fin 8192 := ⟨c.val / 2, by have := c.isLt; omega⟩

/-- The unit `4096 + c / 2` of the second half of the layer that column `c` is folded against. -/
abbrev halfColHi (c : Fin 8192) : Fin 8192 := ⟨4096 + c.val / 2, by have := c.isLt; omega⟩

/-- The dense layer with its ReLU at sample `b` and unit `d`: the odd columns of the sample against row `d` of the
    weights, plus the unit's bias, clamped below at zero. -/
def act (x : FVec Ideal ⟨2, ![8192, 4096]⟩ .f32) (w : FVec Ideal ⟨2, ![8192, 2048]⟩ .f32) (bias : FVec Ideal ⟨1, ![8192]⟩ .f32)
    (b d : Fin 8192) : EReal :=
  max ((∑ k : Fin 2048, x (ix2 b (oddCol k)) * w (ix2 d k)) + bias (ix1 d)) zero32

/-- The folded, zero-interleaved layer as a `[8192, 8192]` array: an even column `c` of row `b` holds unit `c / 2` of the
    first half less unit `c / 2` of the second; an odd column holds zero. -/
def fold2 (x : FVec Ideal ⟨2, ![8192, 4096]⟩ .f32) (w : FVec Ideal ⟨2, ![8192, 2048]⟩ .f32) (bias : FVec Ideal ⟨1, ![8192]⟩ .f32) :
    FVec Ideal ⟨2, ![8192, 8192]⟩ .f32 := fun i =>
  if (i 1).val % 2 = 0 then act x w bias (i 0) (halfCol (i 1)) - act x w bias (i 0) (halfColHi (i 1)) else zero32

/-- The same with the result's trailing unit axis. -/
def fold3 (x : FVec Ideal ⟨2, ![8192, 4096]⟩ .f32) (w : FVec Ideal ⟨2, ![8192, 2048]⟩ .f32) (bias : FVec Ideal ⟨1, ![8192]⟩ .f32) :
    FVec Ideal ⟨3, ![8192, 8192, 1]⟩ .f32 := fun i => fold2 x w bias (ix2 (i 0) (i 1))

theorem fold2_even (x : FVec Ideal ⟨2, ![8192, 4096]⟩ .f32) (w : FVec Ideal ⟨2, ![8192, 2048]⟩ .f32) (bias : FVec Ideal ⟨1, ![8192]⟩ .f32)
    (b c : Fin 8192) (hc : c.val % 2 = 0) :
    fold2 x w bias (ix2 b c) = act x w bias b (halfCol c) - act x w bias b (halfColHi c) := if_pos hc

theorem fold2_odd (x : FVec Ideal ⟨2, ![8192, 4096]⟩ .f32) (w : FVec Ideal ⟨2, ![8192, 2048]⟩ .f32) (bias : FVec Ideal ⟨1, ![8192]⟩ .f32)
    (b c : Fin 8192) (hc : ¬ c.val % 2 = 0) : fold2 x w bias (ix2 b c) = zero32 := if_neg hc

theorem fold3_apply (x : FVec Ideal ⟨2, ![8192, 4096]⟩ .f32) (w : FVec Ideal ⟨2, ![8192, 2048]⟩ .f32) (bias : FVec Ideal ⟨1, ![8192]⟩ .f32)
    (b c : Fin 8192) (u : Fin 1) : fold3 x w bias (ix3 b c u) = fold2 x w bias (ix2 b c) := rfl

/-! ## One tile of the kernel's grid

A grid point holds a `[2048, 2048]` tile of samples, a `[512, 2048]` tile of weight rows from each half of the layer and
the two matching `[1, 512]` rows of bias, and writes a `[2048, 1024]` tile of the result: the same fold, on the tile's own
coordinates. -/

/-- Half a column index of a tile of width 1024: the unit, within the tile, that the column belongs to. -/
abbrev halfLane (q : Fin 1024) : Fin 512 := ⟨q.val / 2, by have := q.isLt; omega⟩

/-- The dense layer with its ReLU on one tile: sample `p` of the tile against weight row `n` of the tile, plus the
    unit's bias, clamped below at zero. -/
def tileAct (x : FVec Ideal ⟨2, ![2048, 2048]⟩ .bf16) (w : FVec Ideal ⟨2, ![512, 2048]⟩ .bf16) (b : FVec Ideal ⟨2, ![1, 512]⟩ .f32)
    (p : Fin 2048) (n : Fin 512) : EReal :=
  max ((∑ k : Fin 2048, x (ix2 p k) * w (ix2 n k)) + b (ix2 (0 : Fin 1) n)) zero32

/-- What a grid point writes: an even column `q` of row `p` holds unit `q / 2` of the first half's tile less the same
    unit of the second half's; an odd column holds zero. -/
def tile (x : FVec Ideal ⟨2, ![2048, 2048]⟩ .bf16) (w1 w2 : FVec Ideal ⟨2, ![512, 2048]⟩ .bf16) (b1 b2 : FVec Ideal ⟨2, ![1, 512]⟩ .f32) :
    FVec Ideal ⟨2, ![2048, 1024]⟩ .f32 := fun y =>
  if (y 1).val % 2 = 0 then tileAct x w1 b1 (y 0) (halfLane (y 1)) - tileAct x w2 b2 (y 0) (halfLane (y 1)) else zero32

theorem tile_even (x : FVec Ideal ⟨2, ![2048, 2048]⟩ .bf16) (w1 w2 : FVec Ideal ⟨2, ![512, 2048]⟩ .bf16) (b1 b2 : FVec Ideal ⟨2, ![1, 512]⟩ .f32)
    (p : Fin 2048) (q : Fin 1024) (hq : q.val % 2 = 0) :
    tile x w1 w2 b1 b2 (ix2 p q) = tileAct x w1 b1 p (halfLane q) - tileAct x w2 b2 p (halfLane q) := if_pos hq

theorem tile_odd (x : FVec Ideal ⟨2, ![2048, 2048]⟩ .bf16) (w1 w2 : FVec Ideal ⟨2, ![512, 2048]⟩ .bf16) (b1 b2 : FVec Ideal ⟨2, ![1, 512]⟩ .f32)
    (p : Fin 2048) (q : Fin 1024) (hq : ¬ q.val % 2 = 0) : tile x w1 w2 b1 b2 (ix2 p q) = zero32 := if_neg hq

end Cert.FoldSpec

end
-- ==== Proof.Payload.lean ====
import proofs.«150573_j68710886802317_2_alg».proof.Proof.Gen.KernelIdeal.Skeleton
import proofs.«150573_j68710886802317_2_alg».proof.Proof.Spec
import Idealize.ShloMosaic.Lib.Pipeline.Value
import Idealize.ShloMosaic.Lib.ValueLayout

noncomputable section
namespace Cert.FoldKernel
open Idealize.ShloMosaic Idealize.ShloMosaic.ValueIdx Cert.KernelIdeal Cert.KernelIdeal.Gen

/-- The left operand's row coordinate in the contraction is the result's row: the sample. -/
theorem lhs_row (j : S2048x512.Idx) (q : dot_S2048x2048_S512x2048_S2048x512_1_1_0_0_n_n.contr.Idx) :
    (dot_S2048x2048_S512x2048_S2048x512_1_1_0_0_n_n.lhsIdx j q 0).val = (j 0).val := by
  unfold DotDims.lhsIdx
  rw [dif_neg (show ¬(0 : Fin S2048x2048.rank) ∈ dot_S2048x2048_S512x2048_S2048x512_1_1_0_0_n_n.lhsBatch by decide), dif_pos (show (0 : Fin S2048x2048.rank) ∈ dot_S2048x2048_S512x2048_S2048x512_1_1_0_0_n_n.lhsNonContracting by decide)]
  rfl

/-- The right operand's row coordinate in the contraction is the result's column: the weight row. -/
theorem rhs_row (j : S2048x512.Idx) (q : dot_S2048x2048_S512x2048_S2048x512_1_1_0_0_n_n.contr.Idx) :
    (dot_S2048x2048_S512x2048_S2048x512_1_1_0_0_n_n.rhsIdx j q 0).val = (j 1).val := by
  unfold DotDims.rhsIdx
  rw [dif_neg (show ¬(0 : Fin S512x2048.rank) ∈ dot_S2048x2048_S512x2048_S2048x512_1_1_0_0_n_n.rhsBatch by decide), dif_pos (show (0 : Fin S512x2048.rank) ∈ dot_S2048x2048_S512x2048_S2048x512_1_1_0_0_n_n.rhsNonContracting by decide)]
  rfl

/-- The contraction of the tile's samples against a tile of weight rows, into the zero accumulator, at sample `p` and
    weight row `n`: the sum over the 2048 shared columns. -/
theorem matmul_at (x : FVec Ideal ⟨2, ![2048, 2048]⟩ .bf16) (w : FVec Ideal ⟨2, ![512, 2048]⟩ .bf16) (p : Fin 2048) (n : Fin 512) :
    matmul (F := Ideal) dot_S2048x2048_S512x2048_S2048x512_1_1_0_0_n_n none x w (constant (F := Ideal) S2048x512 .f32 0x00000000#32) (ix2 p n)
      = ∑ k : Fin 2048, x (ix2 p k) * w (ix2 n k) := by
  refine (Ideal.matmul_constant_zero_apply dot_S2048x2048_S512x2048_S2048x512_1_1_0_0_n_n none x w (ix2 p n)).trans ?_
  rw [← Equiv.sum_comp (ValueIdx.contrEquiv1 dot_S2048x2048_S512x2048_S2048x512_1_1_0_0_n_n 2048 rfl rfl).symm]
  refine Finset.sum_congr rfl fun k _ => ?_
  have hk := ValueIdx.contrEquiv1_symm_val dot_S2048x2048_S512x2048_S2048x512_1_1_0_0_n_n 2048 rfl rfl k
  have el : dot_S2048x2048_S512x2048_S2048x512_1_1_0_0_n_n.lhsIdx (ix2 p n) ((ValueIdx.contrEquiv1 dot_S2048x2048_S512x2048_S2048x512_1_1_0_0_n_n 2048 rfl rfl).symm k) = ix2 p k := funext fun a => Fin.ext (by
    match a with
    | ⟨0, _⟩ => exact lhs_row _ _
    | ⟨1, _⟩ => exact (dot_S2048x2048_S512x2048_S2048x512_1_1_0_0_n_n.lhsIdx_val_of_single rfl (ix2 p n) _).trans hk)
  have er : dot_S2048x2048_S512x2048_S2048x512_1_1_0_0_n_n.rhsIdx (ix2 p n) ((ValueIdx.contrEquiv1 dot_S2048x2048_S512x2048_S2048x512_1_1_0_0_n_n 2048 rfl rfl).symm k) = ix2 n k := funext fun a => Fin.ext (by
    match a with
    | ⟨0, _⟩ => exact rhs_row _ _
    | ⟨1, _⟩ => exact (dot_S2048x2048_S512x2048_S2048x512_1_1_0_0_n_n.rhsIdx_val_of_single rfl (ix2 p n) _).trans hk)
  rw [el, er]

/-- One half of the layer on the tile: the contraction, plus the bias row spread over the samples, clamped below at the
    zero word, at sample `p` and unit `n`. -/
theorem act_at (x : FVec Ideal ⟨2, ![2048, 2048]⟩ .bf16) (w : FVec Ideal ⟨2, ![512, 2048]⟩ .bf16) (b : FVec Ideal ⟨2, ![1, 512]⟩ .f32)
    (p : Fin 2048) (n : Fin 512) :
    maximumf (addf (matmul (F := Ideal) dot_S2048x2048_S512x2048_S2048x512_1_1_0_0_n_n none
        (shapeCast S2048x2048 x shapeCasts_S2048x2048_S2048x2048) (shapeCast S512x2048 w shapeCasts_S512x2048_S512x2048)
        (constant (F := Ideal) S2048x512 .f32 0x00000000#32))
      (broadcastTo S2048x512 (shapeCast S1x512 b shapeCasts_S1x512_S1x512) broadcasts_S1x512_S2048x512))
      (broadcast S2048x512 (Scalar.ofBits (F := Ideal) .f32 0x00000000#32)) (ix2 p n) = Cert.FoldSpec.tileAct x w b p n := by
  rw [shapeCast_self, shapeCast_self, shapeCast_self]
  refine (maximumf_apply _ _ (ix2 p n)).trans ?_
  rw [addf_apply, matmul_at, broadcastTo_1b_ab_apply, broadcast_apply]
  rfl

/-- The interleave at a point: the two `[2048, 512]` arrays, each given a trailing unit axis, joined along that axis
    and flattened to `[2048, 1024]`. Column `q` of row `p` has the row-major position of `(p, q / 2, q % 2)`, so an even
    column reads the first array at `(p, q / 2)` and an odd column the second. -/
theorem interleave_at (d z : FVec Ideal S2048x512 .f32) (p : Fin 2048) (q : Fin 1024) :
    shapeCast S2048x1024
      (concatenate S2048x512x2 2
        [⟨S2048x512x1, shapeCast S2048x512x1 d shapeCasts_S2048x512_S2048x512x1⟩,
         ⟨S2048x512x1, shapeCast S2048x512x1 z shapeCasts_S2048x512_S2048x512x1⟩]
        concatenates_S2048x512x1_S2048x512x1_S2048x512x2_d2)
      shapeCasts_S2048x512x2_S2048x1024 (ix2 p q)
      = if q.val % 2 = 0 then d (ix2 p (Cert.FoldSpec.halfLane q)) else z (ix2 p (Cert.FoldSpec.halfLane q)) := by
  have hr : q.val % 2 < 2 := Nat.mod_lt _ (by decide)
  -- the flattening keeps the row-major position: (p * 512 + q / 2) * 2 + q % 2 = p * 1024 + q
  refine (shapeCast_apply _ shapeCasts_S2048x512x2_S2048x1024 (ix2 p q)
    (ix3 p (Cert.FoldSpec.halfLane q) (⟨q.val % 2, hr⟩ : Fin 2)) ?_).trans ?_
  · rw [Shape.rowMajor_val_three, Shape.rowMajor_val_two]
    show (p.val * 512 + q.val / 2) * 2 + q.val % 2 = p.val * 1024 + q.val
    omega
  -- adding the trailing unit axis keeps the position too: (p * 512 + n) * 1 + 0 = p * 512 + n
  have unit : ∀ v : FVec Ideal S2048x512 .f32,
      shapeCast S2048x512x1 v shapeCasts_S2048x512_S2048x512x1 (ix3 p (Cert.FoldSpec.halfLane q) (0 : Fin 1))
        = v (ix2 p (Cert.FoldSpec.halfLane q)) := fun v => by
    refine shapeCast_apply v shapeCasts_S2048x512_S2048x512x1 _ _ ?_
    rw [Shape.rowMajor_val_three, Shape.rowMajor_val_two]
    show p.val * 512 + q.val / 2 = (p.val * 512 + q.val / 2) * 1 + 0
    omega
  by_cases hq : q.val % 2 = 0
  · -- an even column sits at coordinate 0 of the joined axis: the first piece
    rw [if_pos hq]
    refine (concatenate_pair_apply_left _ _ _ concatenates_S2048x512x1_S2048x512x1_S2048x512x2_d2
      (ix3 p (Cert.FoldSpec.halfLane q) (⟨q.val % 2, hr⟩ : Fin 2)) rfl
      (ix3 p (Cert.FoldSpec.halfLane q) (0 : Fin 1)) ?_).trans (unit d)
    intro b
    match b with
    | ⟨0, _⟩ => rfl
    | ⟨1, _⟩ => rfl
    | ⟨2, _⟩ => exact hq.symm
  · -- an odd column sits at coordinate 1 of the joined axis, past the first piece's one entry: the second piece
    rw [if_neg hq]
    refine (concatenate_pair_apply_right _ _ _ concatenates_S2048x512x1_S2048x512x1_S2048x512x2_d2
      (ix3 p (Cert.FoldSpec.halfLane q) (⟨q.val % 2, hr⟩ : Fin 2)) rfl rfl
      (ix3 p (Cert.FoldSpec.halfLane q) (0 : Fin 1)) ?_ ?_).trans (unit z)
    · intro b hb
      match b with
      | ⟨0, _⟩ => rfl
      | ⟨1, _⟩ => rfl
      | ⟨2, _⟩ => exact absurd rfl hb
    · show 0 + 1 = q.val % 2
      omega

/-- The kernel body's arithmetic on the five blocks of a grid point is the fold on the tile: at column `q` of row `p`,
    the first half's unit `q / 2` less the second half's when `q` is even, the zero word when `q` is odd. -/
theorem pay_eq (x0 : FVec Ideal ⟨2, ![2048, 2048]⟩ .bf16) (x1 x2 : FVec Ideal ⟨2, ![512, 2048]⟩ .bf16)
    (x3 x4 : FVec Ideal ⟨2, ![1, 512]⟩ .f32) :
    Cert.KernelIdeal.Gen.k0_pay1 (F := Ideal) x0 x1 x2 x3 x4 = Cert.FoldSpec.tile x0 x1 x2 x3 x4 := by
  funext y
  obtain ⟨p, q, rfl⟩ : ∃ (p : Fin 2048) (q : Fin 1024), y = ix2 p q := ⟨y 0, y 1, eq_ix2 y⟩
  unfold Cert.KernelIdeal.Gen.k0_pay1
  refine (interleave_at _ _ p q).trans ?_
  by_cases hq : q.val % 2 = 0
  · rw [if_pos hq, Cert.FoldSpec.tile_even x0 x1 x2 x3 x4 p q hq]
    refine (subf_apply _ _ (ix2 p (Cert.FoldSpec.halfLane q))).trans ?_
    rw [act_at x0 x1 x3 p (Cert.FoldSpec.halfLane q), act_at x0 x2 x4 p (Cert.FoldSpec.halfLane q)]
  · rw [if_neg hq, Cert.FoldSpec.tile_odd x0 x1 x2 x3 x4 p q hq]
    rfl

end Cert.FoldKernel

end
-- ==== Proof.Blocks.lean ====
import proofs.«150573_j68710886802317_2_alg».proof.Proof.Gen.KernelIdeal.Frame
import proofs.«150573_j68710886802317_2_alg».proof.Proof.Spec
import proofs.«150573_j68710886802317_2_alg».proof.Proof.Payload
import Idealize.ShloMosaic.Lib.Pipeline.Value
import Idealize.ShloMosaic.Lib.ValueIdx

/-!
# What a grid point writes back, and the array after the run

The kernel's grid has 4 × 8 points. Point `(i, j)` stages rows `2048 i …` of the sample array, rows `512 j …` of each half
of the weights, lanes `512 j …` of each bias row, and writes back the `[2048, 1024]` block at block index `(i, j)` of the
`[8192, 8192]` output. Over the five arrays the region finds (`a3`: samples `[8192, 2048]`; `a5`, `a6`: the two weight
halves `[4096, 2048]`; `a8`, `a10`: the two bias rows `[1, 4096]`) the whole output is ONE function, `foldW`: column
`c` of row `r` holds, for `c` even, unit `c / 2` of the first half's layer less the same unit of the second half's,
and zero for `c` odd. This module proves that every point's block is the restriction of `foldW` to the block, that
the blocks cover the array, and hence that the array ends at `foldW`.
-/

set_option maxRecDepth 16384

noncomputable section

namespace Cert.FoldFrame

open Cert.KernelIdeal Cert.KernelIdeal.Gen Cert.FoldSpec
open Idealize.ShloMosaic Idealize.ShloMosaic.ValueIdx Idealize.ShloMosaic.TcCoe Idealize.SL.Sem
open Idealize.ShloMosaic.Pipeline (Dat Cfg Window)

/-! ## The output as one function of the five arrays the region finds -/

/-- Half a column index of the `[8192, 8192]` output: the unit of one half of the layer. -/
abbrev halfUnit (c : Fin 8192) : Fin 4096 := ⟨c.val / 2, by have := c.isLt; omega⟩

/-- The dense layer with its ReLU over whole arrays: sample `r` against weight row `n` of one half, plus that
    half's bias at `n`, clamped below at zero. -/
def winAct (a : FVec Ideal ⟨2, ![8192, 2048]⟩ .bf16) (w : FVec Ideal ⟨2, ![4096, 2048]⟩ .bf16) (b : FVec Ideal ⟨2, ![1, 4096]⟩ .f32)
    (r : Fin 8192) (n : Fin 4096) : EReal :=
  max ((∑ k : Fin 2048, a (ix2 r k) * w (ix2 n k)) + b (ix2 (0 : Fin 1) n)) zero32

/-- The folded, zero-interleaved output over whole arrays. -/
def foldW (a3 : FVec Ideal ⟨2, ![8192, 2048]⟩ .bf16) (a5 a6 : FVec Ideal ⟨2, ![4096, 2048]⟩ .bf16) (a8 a10 : FVec Ideal ⟨2, ![1, 4096]⟩ .f32) :
    FVec Ideal ⟨2, ![8192, 8192]⟩ .f32 := fun i =>
  if (i 1).val % 2 = 0 then winAct a3 a5 a8 (i 0) (halfUnit (i 1)) - winAct a3 a6 a10 (i 0) (halfUnit (i 1)) else zero32

/-! ## The index maps, decided over the grid -/

theorem hz : (![0, 0] : Fin 2 → Nat) = fun _ => 0 := funext fun a => by fin_cases a <;> rfl

/-- The printed index maps over the 32 points: the sample window moves with the output's row block and sits at column
    block zero; the weight and bias windows move with the output's column block; the output's block indices stay
    below 4 and 8. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 3 ∧ win0_5.index t (1 : Fin 2) ≤ 7 :=
  (by decide +kernel : ∀ t : Fin grid0.N, _)

/-- Every block of the output is some point's. -/
theorem idx_onto : ∀ (q0 : Fin 4) (q1 : Fin 8), ∃ t : Fin cfg0.N, win0_5.index t = ![q0.val, q1.val] :=
  (by decide +kernel : ∀ (q0 : Fin 4) (q1 : Fin 8), ∃ t : Fin grid0.N, win0_5.index t = ![q0.val, q1.val])

/-! ## A window's block read at coordinates: the array at block index × block size + the coordinate -/

/-- The sample window's block at point `t`, at `(p, k)`, is the sample array at row `r` = block row × 2048 + `p`. -/
theorem read0 (A : FVec Ideal ⟨2, ![8192, 2048]⟩ .bf16) (t : Fin cfg0.N) (p k : Fin 2048) (r : Fin 8192)
    (hr : r.val = win0_0.index t (0 : Fin 2) * 2048 + p.val) (h1 : win0_0.index t (1 : Fin 2) = 0) :
    ((cfg0.win 0).blk t).view.read (Elt Ideal) A (ix2 p k) = A (ix2 r k) := by
  show A (((cfg0.win 0).blk t).view.emb (ix2 p k)) = A (ix2 r k)
  refine congrArg A (funext fun a => Fin.ext ?_)
  match a with
  | ⟨0, _⟩ => show win0_0.index t (0 : Fin 2) * 2048 + 1 * p.val = r.val; omega
  | ⟨1, _⟩ => show win0_0.index t (1 : Fin 2) * 2048 + 1 * k.val = k.val; omega

/-- A weight window's block (first half) at `(n, k)` is the array at row `d` = block row × 512 + `n`. -/
theorem read1 (A : FVec Ideal ⟨2, ![4096, 2048]⟩ .bf16) (t : Fin cfg0.N) (n : Fin 512) (k : Fin 2048) (d : Fin 4096)
    (hd : d.val = win0_1.index t (0 : Fin 2) * 512 + n.val) (h1 : win0_1.index t (1 : Fin 2) = 0) :
    ((cfg0.win 1).blk t).view.read (Elt Ideal) A (ix2 n k) = A (ix2 d k) := by
  show A (((cfg0.win 1).blk t).view.emb (ix2 n k)) = A (ix2 d k)
  refine congrArg A (funext fun a => Fin.ext ?_)
  match a with
  | ⟨0, _⟩ => show win0_1.index t (0 : Fin 2) * 512 + 1 * n.val = d.val; omega
  | ⟨1, _⟩ => show win0_1.index t (1 : Fin 2) * 2048 + 1 * k.val = k.val; omega

/-- The same for the second half's weight window. -/
theorem read2 (A : FVec Ideal ⟨2, ![4096, 2048]⟩ .bf16) (t : Fin cfg0.N) (n : Fin 512) (k : Fin 2048) (d : Fin 4096)
    (hd : d.val = win0_2.index t (0 : Fin 2) * 512 + n.val) (h1 : win0_2.index t (1 : Fin 2) = 0) :
    ((cfg0.win 2).blk t).view.read (Elt Ideal) A (ix2 n k) = A (ix2 d k) := by
  show A (((cfg0.win 2).blk t).view.emb (ix2 n k)) = A (ix2 d k)
  refine congrArg A (funext fun a => Fin.ext ?_)
  match a with
  | ⟨0, _⟩ => show win0_2.index t (0 : Fin 2) * 512 + 1 * n.val = d.val; omega
  | ⟨1, _⟩ => show win0_2.index t (1 : Fin 2) * 2048 + 1 * k.val = k.val; omega

/-- A bias window's block (first half) at lane `n` of its one row is the bias row at lane `d` = block × 512 + `n`. -/
theorem read3 (A : FVec Ideal ⟨2, ![1, 4096]⟩ .f32) (t : Fin cfg0.N) (n : Fin 512) (d : Fin 4096)
    (hd : d.val = win0_3.index t (1 : Fin 2) * 512 + n.val) (h0 : win0_3.index t (0 : Fin 2) = 0) :
    ((cfg0.win 3).blk t).view.read (Elt Ideal) A (ix2 (0 : Fin 1) n) = A (ix2 (0 : Fin 1) d) := by
  show A (((cfg0.win 3).blk t).view.emb (ix2 (0 : Fin 1) n)) = A (ix2 (0 : Fin 1) d)
  refine congrArg A (funext fun a => Fin.ext ?_)
  match a with
  | ⟨0, _⟩ => show win0_3.index t (0 : Fin 2) * 1 + 1 * 0 = 0; omega
  | ⟨1, _⟩ => show win0_3.index t (1 : Fin 2) * 512 + 1 * n.val = d.val; omega

/-- The same for the second half's bias window. -/
theorem read4 (A : FVec Ideal ⟨2, ![1, 4096]⟩ .f32) (t : Fin cfg0.N) (n : Fin 512) (d : Fin 4096)
    (hd : d.val = win0_4.index t (1 : Fin 2) * 512 + n.val) (h0 : win0_4.index t (0 : Fin 2) = 0) :
    ((cfg0.win 4).blk t).view.read (Elt Ideal) A (ix2 (0 : Fin 1) n) = A (ix2 (0 : Fin 1) d) := by
  show A (((cfg0.win 4).blk t).view.emb (ix2 (0 : Fin 1) n)) = A (ix2 (0 : Fin 1) d)
  refine congrArg A (funext fun a => Fin.ext ?_)
  match a with
  | ⟨0, _⟩ => show win0_4.index t (0 : Fin 2) * 1 + 1 * 0 = 0; omega
  | ⟨1, _⟩ => show win0_4.index t (1 : Fin 2) * 512 + 1 * n.val = d.val; omega

/-! ## A tile's unit is the whole arrays' unit -/

/-- When a tile of samples, a tile of weight rows and a tile of bias lanes are the arrays read at row `r` and unit `d`,
    the tile's layer at `(p, n)` is the arrays' layer at `(r, d)`: the same sum, term by term. -/
theorem tileAct_eq_winAct (x : FVec Ideal ⟨2, ![2048, 2048]⟩ .bf16) (wt : FVec Ideal ⟨2, ![512, 2048]⟩ .bf16) (bt : FVec Ideal ⟨2, ![1, 512]⟩ .f32)
    (a : FVec Ideal ⟨2, ![8192, 2048]⟩ .bf16) (w : FVec Ideal ⟨2, ![4096, 2048]⟩ .bf16) (b : FVec Ideal ⟨2, ![1, 4096]⟩ .f32)
    (p : Fin 2048) (n : Fin 512) (r : Fin 8192) (d : Fin 4096)
    (hx : ∀ k : Fin 2048, x (ix2 p k) = a (ix2 r k)) (hw : ∀ k : Fin 2048, wt (ix2 n k) = w (ix2 d k))
    (hb : bt (ix2 (0 : Fin 1) n) = b (ix2 (0 : Fin 1) d)) :
    tileAct x wt bt p n = winAct a w b r d := by
  unfold tileAct winAct
  rw [hb]
  exact congrArg (fun s => max (s + b (ix2 (0 : Fin 1) d)) zero32) (Finset.sum_congr rfl fun k _ => by rw [hx k, hw k])

theorem foldW_even (a3 : FVec Ideal ⟨2, ![8192, 2048]⟩ .bf16) (a5 a6 : FVec Ideal ⟨2, ![4096, 2048]⟩ .bf16) (a8 a10 : FVec Ideal ⟨2, ![1, 4096]⟩ .f32)
    (r cc : Fin 8192) (hc : cc.val % 2 = 0) :
    foldW a3 a5 a6 a8 a10 (ix2 r cc) = winAct a3 a5 a8 r (halfUnit cc) - winAct a3 a6 a10 r (halfUnit cc) := if_pos hc

theorem foldW_odd (a3 : FVec Ideal ⟨2, ![8192, 2048]⟩ .bf16) (a5 a6 : FVec Ideal ⟨2, ![4096, 2048]⟩ .bf16) (a8 a10 : FVec Ideal ⟨2, ![1, 4096]⟩ .f32)
    (r cc : Fin 8192) (hc : ¬ cc.val % 2 = 0) : foldW a3 a5 a6 a8 a10 (ix2 r cc) = zero32 := if_neg hc

/-! ## What a point writes back -/

/-- Over ANY five arrays: the tile computed from their blocks at point `t` is the block of `foldW` at `t`. An element
    `(p, q)` of the output block sits at row `r` = block row × 2048 + `p` and column `cc` = block column × 1024 + `q`;
    `cc` and `q` have the same parity, and `cc / 2` = block column × 512 + `q / 2` is the unit the weight and bias
    blocks hold at `q / 2`. -/
theorem tile_blocks_eq (a3 : FVec Ideal ⟨2, ![8192, 2048]⟩ .bf16) (a5 a6 : FVec Ideal ⟨2, ![4096, 2048]⟩ .bf16)
    (a8 a10 : FVec Ideal ⟨2, ![1, 4096]⟩ .f32) (t : Fin cfg0.N) :
    (cfg0.win 5).cut (grid0.coords t)
      (tile (((cfg0.win 0).blk t).view.read (Elt Ideal) a3) (((cfg0.win 1).blk t).view.read (Elt Ideal) a5)
        (((cfg0.win 2).blk t).view.read (Elt Ideal) a6) (((cfg0.win 3).blk t).view.read (Elt Ideal) a8)
        (((cfg0.win 4).blk t).view.read (Elt Ideal) a10))
    = ((cfg0.win 5).blk t).view.read (Elt Ideal) (foldW a3 a5 a6 a8 a10) := by
  obtain ⟨e00, e01, e10, e11, e20, e21, e30, e31, e40, e41, b0, b1⟩ := idx_facts t
  refine funext fun (y : (⟨2, ![2048, 1024]⟩ : Shape).Idx) => ?_
  obtain ⟨p, q, rfl⟩ : ∃ (p : Fin 2048) (q : Fin 1024), y = ix2 p q := ⟨y 0, y 1, eq_ix2 y⟩
  have hp := p.isLt
  have hq := q.isLt
  -- the element's row and column in the output
  obtain ⟨r, hr⟩ : ∃ r : Fin 8192, r.val = win0_5.index t (0 : Fin 2) * 2048 + p.val := ⟨⟨_, by omega⟩, rfl⟩
  obtain ⟨cc, hcc⟩ : ∃ cc : Fin 8192, cc.val = win0_5.index t (1 : Fin 2) * 1024 + q.val := ⟨⟨_, by omega⟩, rfl⟩
  have hemb : ((cfg0.win 5).blk t).view.emb (ix2 p q) = ix2 r cc := by
    refine funext fun a => Fin.ext ?_
    match a with
    | ⟨0, _⟩ => show win0_5.index t (0 : Fin 2) * 2048 + 1 * p.val = r.val; omega
    | ⟨1, _⟩ => show win0_5.index t (1 : Fin 2) * 1024 + 1 * q.val = cc.val; omega
  show tile _ _ _ _ _ (ix2 p q) = foldW a3 a5 a6 a8 a10 (((cfg0.win 5).blk t).view.emb (ix2 p q))
  rw [hemb]
  -- the unit within the tile and the unit within a half of the layer
  have hu : (halfUnit cc).val = win0_5.index t (1 : Fin 2) * 512 + (halfLane q).val := by
    show cc.val / 2 = win0_5.index t (1 : Fin 2) * 512 + q.val / 2; omega
  by_cases hpar : q.val % 2 = 0
  · rw [tile_even _ _ _ _ _ p q hpar, foldW_even _ _ _ _ _ r cc (by omega)]
    rw [tileAct_eq_winAct _ _ _ a3 a5 a8 p (halfLane q) r (halfUnit cc)
          (fun k => read0 a3 t p k r (by omega) e01)
          (fun k => read1 a5 t (halfLane q) k (halfUnit cc) (by omega) e11)
          (read3 a8 t (halfLane q) (halfUnit cc) (by omega) e30),
        tileAct_eq_winAct _ _ _ a3 a6 a10 p (halfLane q) r (halfUnit cc)
          (fun k => read0 a3 t p k r (by omega) e01)
          (fun k => read2 a6 t (halfLane q) k (halfUnit cc) (by omega) e21)
          (read4 a10 t (halfLane q) (halfUnit cc) (by omega) e40)]
  · rw [tile_odd _ _ _ _ _ p q hpar, foldW_odd _ _ _ _ _ r cc (by omega)]

/-! ## The run's proof data: what point `t` writes back, the cover, the array after the run -/

section Run

variable (m : (ℓ : Loc nD τ sig) → Buf (Elt Ideal) ℓ)

/-- The output over the five arrays as the region finds them. -/
abbrev outW (c : Dev nD) : FVec Ideal ⟨2, ![8192, 8192]⟩ .f32 :=
  foldW (V m c main_v3) (V m c main_v5) (V m c main_v6) (V m c main_v8) (V m c main_v10)

/-- What point `t` writes back is block `t` of the output function: the body's one store covers the staging buffer
    with its payload, the payload is the tile of the loaded blocks, and the tile is the block of `foldW`. -/
theorem flushed_eq (c : Dev nD) (t : Fin cfg0.N) :
    (dats m 0 c).flushed 5 t = ((cfg0.win 5).blk t).view.read (Elt Ideal) (outW m c) := by
  show (cfg0.win 5).cut (grid0.coords t) ((dats m 0 c).after 5 t) = _
  rw [after0_5]
  unfold out0_5
  rw [View.canon_unit_zero hz]
  simp only [View.ld_unit_zero (S := S2048x2048) hz, View.ld_unit_zero (S := S512x2048) hz, View.ld_unit_zero (S := S1x512) hz]
  rw [Cert.FoldKernel.pay_eq]
  exact tile_blocks_eq (V m c main_v3) (V m c main_v5) (V m c main_v6) (V m c main_v8) (V m c main_v10) t

/-- An index of the output is in point `t`'s block iff each coordinate is in the block's range on its axis. -/
theorem mem_blk (t : Fin cfg0.N) (i : S8192x8192.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_v11).slice (win0_5.rect t)).set ↔ _
  rw [View.set_slice_whole, Rect.mem_set_unit]
  exact Iff.rfl

/-- Every index of the output is in some flushing point's block: the point whose block index is
    (row / 2048, column / 1024). -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win0_5.index t (0 : Fin 2) = (i 0).val / 2048 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1024 ≤ (i 1).val ∧ (i 1).val < win0_5.index t (1 : Fin 2) * 1024 + 1024; omega

/-- The output array after the run is the output function of the arrays the region finds. -/
theorem final (c : Dev nD) : (dats m 0 c).arrAt 5 cfg0.N = outW m c :=
  (dats m 0 c).arrAt_eq_of_cover 5 (outW m c) (fun t _ => flushed_eq m c t) cover

end Run

end Cert.FoldFrame

end
-- ==== Proof.Host.lean ====
import proofs.«150573_j68710886802317_2_alg».proof.Proof.Blocks
import Idealize.ShloMosaic.Lib.StableHlo.Run
import Idealize.ShloMosaic.Lib.ValueLayout

/-!
# The host operations around the region, and the kernel's run with its result named

Before the region the host cuts the three arguments into the five arrays the kernel stages: the odd columns of the
samples (a reshape to `[8192, 2048, 2]`, the slice at 1 of the last axis, a reshape back, a change of float format), the two
row halves of the weights (a change of float format, two slices), the two halves of the bias laid as one-row tables.
After the region it gives the output a trailing unit axis. Read at an index each is a plain re-indexing of an argument,
so the output function of the five arrays is the specification's `fold2` of the arguments, and the program's result is
`fold3`.
-/

set_option maxRecDepth 16384

noncomputable section

namespace Cert.FoldFrame

open Cert.KernelIdeal Cert.KernelIdeal.Gen Cert.FoldSpec
open Idealize.ShloMosaic Idealize.ShloMosaic.ValueIdx Idealize.ShloMosaic.TcCoe Idealize.SL.Sem
open Idealize.ShloMosaic.Pipeline (Dat Cfg Window)

/-! ## The host's cuts of the arguments, read at an index (over any arrays) -/

/-- The odd columns: entry `(r, k)` of the samples the kernel stages is entry `(r, 2k+1)` of the argument. Row-major,
    `(r, k, 1)` of `[8192, 2048, 2]` and `(r, 2k+1)` of `[8192, 4096]` are the same position. -/
theorem oddCols_apply (x : FVec Ideal ⟨2, ![8192, 4096]⟩ .f32)
    (h0 : (⟨2, ![8192, 4096]⟩ : Shape).ShapeCasts ⟨3, ![8192, 2048, 2]⟩)
    (h1 : (⟨3, ![8192, 2048, 2]⟩ : Shape).Slices ![0, 0, 1] ⟨3, ![8192, 2048, 1]⟩)
    (h2 : (⟨3, ![8192, 2048, 1]⟩ : Shape).ShapeCasts ⟨2, ![8192, 2048]⟩) (hb : FTy.bits .bf16 < FTy.bits .f32)
    (r : Fin 8192) (k : Fin 2048) :
    (truncf (φ := .f32) .bf16 (shapeCast ⟨2, ![8192, 2048]⟩ (extractStridedSlice ⟨3, ![8192, 2048, 1]⟩ ![0, 0, 1]
        (shapeCast ⟨3, ![8192, 2048, 2]⟩ x h0) h1) h2) hb : FVec Ideal ⟨2, ![8192, 2048]⟩ .bf16) (ix2 r k)
      = x (ix2 r (oddCol k)) := by
  have hr := r.isLt
  have hk := k.isLt
  rw [truncf_apply]
  refine (shapeCast_apply _ h2 (ix2 r k) (ix3 r k (0 : Fin 1)) ?_).trans ?_
  · rw [Shape.rowMajor_val_three, Shape.rowMajor_val_two]
    show (r.val * 2048 + k.val) * 1 + 0 = r.val * 2048 + k.val; omega
  refine (extractStridedSlice_apply ![0, 0, 1] _ h1 (ix3 r k (0 : Fin 1)) (ix3 r k (1 : Fin 2)) (fun a => match a with
    | ⟨0, _⟩ => by show r.val = 0 + r.val; omega
    | ⟨1, _⟩ => by show k.val = 0 + k.val; omega
    | ⟨2, _⟩ => by show 1 = 1 + 0; omega)).trans ?_
  exact shapeCast_apply x h0 (ix3 r k (1 : Fin 2)) (ix2 r (oddCol k)) (by
    rw [Shape.rowMajor_val_two, Shape.rowMajor_val_three]
    show r.val * 4096 + (2 * k.val + 1) = (r.val * 2048 + k.val) * 2 + 1; omega)

/-- A row half of the weights: entry `(n, k)` of the half that starts at row `o` is entry `(o + n, k)` of the argument. -/
theorem rowHalf_apply (w : FVec Ideal ⟨2, ![8192, 2048]⟩ .f32) (hb : FTy.bits .bf16 < FTy.bits .f32) (o : Nat)
    (hs : (⟨2, ![8192, 2048]⟩ : Shape).Slices ![o, 0] ⟨2, ![4096, 2048]⟩) (n : Fin 4096) (k : Fin 2048) (d : Fin 8192)
    (hd : d.val = o + n.val) :
    extractStridedSlice ⟨2, ![4096, 2048]⟩ ![o, 0] (truncf (φ := .f32) .bf16 w hb : FVec Ideal ⟨2, ![8192, 2048]⟩ .bf16) hs (ix2 n k)
      = w (ix2 d k) := by
  refine (extractStridedSlice_apply ![o, 0] _ hs (ix2 n k) (ix2 d k) (fun a => match a with
    | ⟨0, _⟩ => by show d.val = o + n.val; omega
    | ⟨1, _⟩ => by show k.val = 0 + k.val; omega)).trans ?_
  rw [truncf_apply]

/-- A half of the bias as a one-row table: lane `n` of the half that starts at `o` is entry `o + n` of the argument. -/
theorem biasHalf_apply (bias : FVec Ideal ⟨1, ![8192]⟩ .f32) (o : Nat)
    (hs : (⟨1, ![8192]⟩ : Shape).Slices ![o] ⟨1, ![4096]⟩) (hc : (⟨1, ![4096]⟩ : Shape).ShapeCasts ⟨2, ![1, 4096]⟩)
    (n : Fin 4096) (d : Fin 8192) (hd : d.val = o + n.val) :
    shapeCast ⟨2, ![1, 4096]⟩ (extractStridedSlice ⟨1, ![4096]⟩ ![o] bias hs) hc (ix2 (0 : Fin 1) n) = bias (ix1 d) := by
  refine (shapeCast_a_1a_apply _ hc (0 : Fin 1) n).trans ?_
  exact extractStridedSlice_apply ![o] bias hs (ix1 n) (ix1 d) (fun a => match a with
    | ⟨0, _⟩ => by show d.val = o + n.val; omega)

/-! ## The output function of the five arrays is the specification of the arguments -/

/-- One unit of the layer over the staged arrays is the specification's unit `d` of the arguments, when the staged
    samples are the odd columns and the staged weight row and bias lane are the argument's at `d`. -/
theorem winAct_eq_act (a : FVec Ideal ⟨2, ![8192, 2048]⟩ .bf16) (wh : FVec Ideal ⟨2, ![4096, 2048]⟩ .bf16) (bh : FVec Ideal ⟨2, ![1, 4096]⟩ .f32)
    (x : FVec Ideal ⟨2, ![8192, 4096]⟩ .f32) (w : FVec Ideal ⟨2, ![8192, 2048]⟩ .f32) (bias : FVec Ideal ⟨1, ![8192]⟩ .f32)
    (r : Fin 8192) (n : Fin 4096) (d : Fin 8192)
    (hx : ∀ k : Fin 2048, a (ix2 r k) = x (ix2 r (oddCol k))) (hw : ∀ k : Fin 2048, wh (ix2 n k) = w (ix2 d k))
    (hb : bh (ix2 (0 : Fin 1) n) = bias (ix1 d)) :
    winAct a wh bh r n = act x w bias r d := by
  unfold winAct act
  rw [hb]
  exact congrArg (fun s => max (s + bias (ix1 d)) zero32) (Finset.sum_congr rfl fun k _ => by rw [hx k, hw k])

/-- The folded output over the staged arrays is `fold2` of the arguments. -/
theorem foldW_eq_fold2 (a3 : FVec Ideal ⟨2, ![8192, 2048]⟩ .bf16) (a5 a6 : FVec Ideal ⟨2, ![4096, 2048]⟩ .bf16) (a8 a10 : FVec Ideal ⟨2, ![1, 4096]⟩ .f32)
    (x : FVec Ideal ⟨2, ![8192, 4096]⟩ .f32) (w : FVec Ideal ⟨2, ![8192, 2048]⟩ .f32) (bias : FVec Ideal ⟨1, ![8192]⟩ .f32)
    (h3 : ∀ (r : Fin 8192) (k : Fin 2048), a3 (ix2 r k) = x (ix2 r (oddCol k)))
    (h5 : ∀ (n : Fin 4096) (k : Fin 2048) (d : Fin 8192), d.val = 0 + n.val → a5 (ix2 n k) = w (ix2 d k))
    (h6 : ∀ (n : Fin 4096) (k : Fin 2048) (d : Fin 8192), d.val = 4096 + n.val → a6 (ix2 n k) = w (ix2 d k))
    (h8 : ∀ (n : Fin 4096) (d : Fin 8192), d.val = 0 + n.val → a8 (ix2 (0 : Fin 1) n) = bias (ix1 d))
    (h10 : ∀ (n : Fin 4096) (d : Fin 8192), d.val = 4096 + n.val → a10 (ix2 (0 : Fin 1) n) = bias (ix1 d)) :
    foldW a3 a5 a6 a8 a10 = fold2 x w bias := by
  funext i
  obtain ⟨r, cc, rfl⟩ : ∃ (r cc : Fin 8192), i = ix2 r cc := ⟨i 0, i 1, eq_ix2 i⟩
  by_cases hc : cc.val % 2 = 0
  · rw [foldW_even _ _ _ _ _ r cc hc, fold2_even _ _ _ r cc hc,
      winAct_eq_act a3 a5 a8 x w bias r (halfUnit cc) (halfCol cc) (h3 r)
        (fun k => h5 (halfUnit cc) k (halfCol cc) (by show cc.val / 2 = 0 + cc.val / 2; omega))
        (h8 (halfUnit cc) (halfCol cc) (by show cc.val / 2 = 0 + cc.val / 2; omega)),
      winAct_eq_act a3 a6 a10 x w bias r (halfUnit cc) (halfColHi cc) (h3 r)
        (fun k => h6 (halfUnit cc) k (halfColHi cc) (by show 4096 + cc.val / 2 = 4096 + cc.val / 2; rfl))
        (h10 (halfUnit cc) (halfColHi cc) (by show 4096 + cc.val / 2 = 4096 + cc.val / 2; rfl))]
  · rw [foldW_odd _ _ _ _ _ r cc hc, fold2_odd _ _ _ r cc hc]

/-! ## The arrays the region finds, the array it leaves, and the program's result -/

section Run

variable (m : (ℓ : Loc nD τ sig) → Buf (Elt Ideal) ℓ)

/-- The staged samples are the host's cut of the first argument. -/
theorem V_v3 (c : Dev nD) : (V m c main_v3 : FVec Ideal S8192x2048 .bf16)
    = truncf (F := Ideal) (φ := .f32) .bf16 (shapeCast S8192x2048 (extractStridedSlice S8192x2048x1 ![0, 0, 1]
        (shapeCast S8192x2048x2 (m ((c : Thread nD τ).loc main_arg0)) shapeCasts_S8192x4096_S8192x2048x2)
        slices_S8192x2048x2_S8192x2048x1_0_0_1) shapeCasts_S8192x2048x1_S8192x2048) bitsLt_bf16_f32 := by
  show StableHlo.after hostOps0 (fun b => m (c, b)) (Proc.devRef .tc main_v3) = _
  after_results <;> rfl

/-- The first staged weight half is the host's cut of the second argument. -/
theorem V_v5 (c : Dev nD) : (V m c main_v5 : FVec Ideal S4096x2048 .bf16)
    = extractStridedSlice S4096x2048 ![0, 0] (truncf (φ := .f32) .bf16 (m ((c : Thread nD τ).loc main_arg1)) bitsLt_bf16_f32 : FVec Ideal S8192x2048 .bf16)
        slices_S8192x2048_S4096x2048_0_0 := by
  show StableHlo.after hostOps0 (fun b => m (c, b)) (Proc.devRef .tc main_v5) = _
  after_results <;> rfl

/-- The second staged weight half. -/
theorem V_v6 (c : Dev nD) : (V m c main_v6 : FVec Ideal S4096x2048 .bf16)
    = extractStridedSlice S4096x2048 ![4096, 0] (truncf (φ := .f32) .bf16 (m ((c : Thread nD τ).loc main_arg1)) bitsLt_bf16_f32 : FVec Ideal S8192x2048 .bf16)
        slices_S8192x2048_S4096x2048_4096_0 := by
  show StableHlo.after hostOps0 (fun b => m (c, b)) (Proc.devRef .tc main_v6) = _
  after_results <;> rfl

/-- The first staged bias row is the host's cut of the third argument. -/
theorem V_v8 (c : Dev nD) : (V m c main_v8 : FVec Ideal S1x4096 .f32)
    = shapeCast S1x4096 (extractStridedSlice S4096 ![0] (m ((c : Thread nD τ).loc main_arg2)) slices_S8192_S4096_0) shapeCasts_S4096_S1x4096 := by
  show StableHlo.after hostOps0 (fun b => m (c, b)) (Proc.devRef .tc main_v8) = _
  after_results <;> rfl

/-- The second staged bias row. -/
theorem V_v10 (c : Dev nD) : (V m c main_v10 : FVec Ideal S1x4096 .f32)
    = shapeCast S1x4096 (extractStridedSlice S4096 ![4096] (m ((c : Thread nD τ).loc main_arg2)) slices_S8192_S4096_4096) shapeCasts_S4096_S1x4096 := by
  show StableHlo.after hostOps0 (fun b => m (c, b)) (Proc.devRef .tc main_v10) = _
  after_results <;> rfl

/-- The output function of the arrays the region finds is `fold2` of the arguments at launch. -/
theorem outW_eq (c : Dev nD) :
    outW m c = fold2 (m ((c : Thread nD τ).loc main_arg0)) (m ((c : Thread nD τ).loc main_arg1)) (m ((c : Thread nD τ).loc main_arg2)) := by
  unfold outW
  refine foldW_eq_fold2 _ _ _ _ _ _ _ _ ?_ ?_ ?_ ?_ ?_
  · intro r k; rw [V_v3]; exact oddCols_apply _ _ _ _ _ r k
  · intro n k d hd; rw [V_v5]; exact rowHalf_apply _ _ 0 _ n k d hd
  · intro n k d hd; rw [V_v6]; exact rowHalf_apply _ _ 4096 _ n k d hd
  · intro n d hd; rw [V_v8]; exact biasHalf_apply _ 0 _ _ n d hd
  · intro n d hd; rw [V_v10]; exact biasHalf_apply _ 4096 _ _ n d hd

/-- The program's result: the region's output array with a trailing unit axis, which is `fold3` of the arguments. -/
theorem tail_eq (c : Dev nD) :
    Pipeline.afterTail₀ cfgs (dats m) 0 (V0 m) [hostOps1] c main_v12
      = fold3 (m ((c : Thread nD τ).loc main_arg0)) (m ((c : Thread nD τ).loc main_arg1)) (m ((c : Thread nD τ).loc main_arg2)) := by
  unfold Pipeline.afterTail₀
  show StableHlo.after hostOps1 _ (Proc.devRef .tc main_v12) = _
  after_results
  refine (congrArg (fun a => shapeCast S8192x8192x1 a shapeCasts_S8192x8192_S8192x8192x1)
    ((Pipeline.withArrays_arr spec0 launch0.win.arr_inj c _ _ 5).trans ((final m c).trans (outW_eq m c)))).trans ?_
  funext i
  obtain ⟨b, cc, u, rfl⟩ : ∃ (b cc : Fin 8192) (u : Fin 1), i = ix3 b cc u := ⟨i 0, i 1, i 2, eq_ix3 i⟩
  have hu : u.val = 0 := by omega
  rw [fold3_apply]
  exact shapeCast_apply _ _ (ix3 b cc u) (ix2 b cc) (by
    rw [Shape.rowMajor_val_two, Shape.rowMajor_val_three]
    show b.val * 8192 + cc.val = (b.val * 8192 + cc.val) * 1 + u.val; omega)

/-- The kernel's program at the ideal values: every weakly fair execution terminates, the result buffer holds `fold3` of
    the arguments at launch, and the arguments end unchanged. The generated frame run names every array of the pipeline and
    every other buffer as the lines after the region leave it; the result is read off that. -/
theorem run (ρ : Dev nD → PrngReg) :
    θ_run defs (onTc (τ := τ) (main (F := Ideal))) ⟨m, fun _ => 0, ρ⟩ (fun r => ∀ c : Dev nD,
      r.2.mem ((c.tc : Thread nD τ).loc main_v12)
        = fold3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Run

end Cert.FoldFrame

end
-- ==== Proof.RefValue.lean ====
import proofs.«150573_j68710886802317_2_alg».proof.Proof.Gen.ReferenceIdeal.Run
import proofs.«150573_j68710886802317_2_alg».proof.Proof.Gen.ReferenceIdeal.Read
import proofs.«150573_j68710886802317_2_alg».proof.Proof.Spec

noncomputable section

namespace Cert.FoldRef

open Idealize.ShloMosaic Idealize.ShloMosaic.ValueIdx
open Cert.ReferenceIdeal Cert.ReferenceIdeal.Gen Cert.ReferenceIdeal.Read Cert.FoldSpec

/-! ## The reference, stage by stage

The reference keeps the odd columns of each sample (a reshape to pairs, the second of each pair, a reshape back),
contracts them against the rows of the weights, adds the bias, clamps below at zero, subtracts the second half of
the units from the first, pairs every difference with a zero and flattens the pairs. Each lemma below reads one
stretch of that chain at explicit coordinates. -/

/-- The kept columns: entry `(b, k)` is the sample's odd column `2k + 1`. -/
theorem v2_at (x0 : FVec Ideal ⟨2, ![8192, 4096]⟩ .f32) (b : Fin 8192) (k : Fin 2048) :
    val_main_v2 (F := Ideal) x0 (ix2 b k) = x0 (ix2 b (oddCol k)) := by
  rw [val_main_v2_apply, val_main_v1_apply, val_main_v0_apply]
  refine congrArg x0 (funext fun a => Fin.ext ?_)
  have hb := b.isLt
  have hk := k.isLt
  match a with
  | ⟨0, _⟩ =>
    show ((((b.val * 2048 + k.val) / 2048) * 2048 + (b.val * 2048 + k.val) / 1 % 2048) * 2 + (1 + 0)) / 4096 = b.val
    omega
  | ⟨1, _⟩ =>
    show ((((b.val * 2048 + k.val) / 2048) * 2048 + (b.val * 2048 + k.val) / 1 % 2048) * 2 + (1 + 0)) % 4096 = 2 * k.val + 1
    omega

/-- The bias spread over the samples: entry `(b, d)` is the bias of unit `d`. -/
theorem v5_at (x2 : FVec Ideal ⟨1, ![8192]⟩ .f32) (b d : Fin 8192) :
    val_main_v5 (F := Ideal) x2 (ix2 b d) = x2 (ix1 d) := by
  rw [val_main_v5_apply, val_main_v4_apply]
  exact congrArg x2 (funext fun a => Fin.ext (by match a with | ⟨0, _⟩ => rfl))

/-- The dense layer with its ReLU: entry `(b, d)` is the specification's activation of sample `b` at unit `d`. -/
theorem v7_at (x0 : FVec Ideal ⟨2, ![8192, 4096]⟩ .f32) (x1 : FVec Ideal ⟨2, ![8192, 2048]⟩ .f32)
    (x2 : FVec Ideal ⟨1, ![8192]⟩ .f32) (b d : Fin 8192) :
    val_main_v7 (F := Ideal) x0 x1 x2 (ix2 b d) = act x0 x1 x2 b d := by
  rw [val_main_v7_apply, val_main_v6_apply, val_main_v3_apply, v5_at, val_main_call0_v0_apply,
    val_main_call0_cst_apply]
  have hs : (∑ k : Fin 2048, val_main_v2 (F := Ideal) x0 (lidx_main_v3 (ix2 b d) k) * x1 (ridx_main_v3 (ix2 b d) k))
      = ∑ k : Fin 2048, x0 (ix2 b (oddCol k)) * x1 (ix2 d k) :=
    Finset.sum_congr rfl fun k _ => by
      have el : lidx_main_v3 (ix2 b d) k = ix2 b k :=
        funext fun a => Fin.ext (by match a with | ⟨0, _⟩ => rfl | ⟨1, _⟩ => rfl)
      have er : ridx_main_v3 (ix2 b d) k = ix2 d k :=
        funext fun a => Fin.ext (by match a with | ⟨0, _⟩ => rfl | ⟨1, _⟩ => rfl)
      rw [el, er, v2_at]
  rw [hs]
  rfl

/-- The fold: entry `(b, e)` is unit `e` of the first half less unit `4096 + e` of the second. -/
theorem v10_at (x0 : FVec Ideal ⟨2, ![8192, 4096]⟩ .f32) (x1 : FVec Ideal ⟨2, ![8192, 2048]⟩ .f32)
    (x2 : FVec Ideal ⟨1, ![8192]⟩ .f32) (b : Fin 8192) (e : Fin 4096) :
    val_main_v10 (F := Ideal) x0 x1 x2 (ix2 b e)
      = act x0 x1 x2 b (⟨e.val, by have := e.isLt; omega⟩ : Fin 8192)
        - act x0 x1 x2 b (⟨4096 + e.val, by have := e.isLt; omega⟩ : Fin 8192) := by
  have e8 : idx_main_v8 (ix2 b e) = ix2 b (⟨e.val, by have := e.isLt; omega⟩ : Fin 8192) :=
    funext fun a => Fin.ext (by match a with | ⟨0, _⟩ => rfl | ⟨1, _⟩ => rfl)
  have e9 : idx_main_v9 (ix2 b e) = ix2 b (⟨4096 + e.val, by have := e.isLt; omega⟩ : Fin 8192) :=
    funext fun a => Fin.ext (by match a with | ⟨0, _⟩ => rfl | ⟨1, _⟩ => rfl)
  rw [val_main_v10_apply, val_main_v8_apply, val_main_v9_apply, e8, e9, v7_at, v7_at]
  rfl

/-- The zeros paired with the fold: every entry is the zero word's value. -/
theorem v13_at (i : (⟨3, ![8192, 4096, 1]⟩ : Shape).Idx) :
    val_main_v13 (F := Ideal) i = zero32 := by
  rw [val_main_v13_apply, val_main_v11_apply, val_main_cst_apply]
  rfl

/-- The reference's value is the specification: column `c` of the result sits at pair `c / 2`, place `c % 2`, of the
    pairs; place 0 holds the fold and place 1 the zero. -/
theorem ref_eq (x0 : FVec Ideal ⟨2, ![8192, 4096]⟩ .f32) (x1 : FVec Ideal ⟨2, ![8192, 2048]⟩ .f32)
    (x2 : FVec Ideal ⟨1, ![8192]⟩ .f32) :
    Cert.ReferenceIdeal.Read.val_main_v15 (F := Ideal) x0 x1 x2 = Cert.FoldSpec.fold3 x0 x1 x2 := by
  funext i
  obtain ⟨b, c, u, rfl⟩ : ∃ (b c : Fin 8192) (u : Fin 1), i = ix3 b c u := ⟨i 0, i 1, i 2, eq_ix3 i⟩
  rw [fold3_apply, val_main_v15_apply]
  have hb := b.isLt
  have hc := c.isLt
  have hu : u.val = 0 := by have := u.isLt; omega
  by_cases hpar : c.val % 2 = 0
  · -- an even column: place 0 of pair `c / 2`, the fold
    have ei : idx_main_v15 (ix3 b c u)
        = ix3 b (⟨c.val / 2, by omega⟩ : Fin 4096) (⟨0, by omega⟩ : Fin 2) :=
      funext fun a => Fin.ext (by
        match a with
        | ⟨0, _⟩ => show ((b.val * 8192 + c.val) * 1 + u.val) / 8192 = b.val; omega
        | ⟨1, _⟩ => show ((b.val * 8192 + c.val) * 1 + u.val) / 2 % 4096 = c.val / 2; omega
        | ⟨2, _⟩ => show ((b.val * 8192 + c.val) * 1 + u.val) % 2 = 0; omega)
    rw [ei, fold2_even _ _ _ _ _ hpar]
    unfold val_main_v14
    refine (concatenate_pair_apply_left (t := S8192x4096x2) (s₁ := S8192x4096x1) (s₂ := S8192x4096x1) 2
      (val_main_v12 (F := Ideal) x0 x1 x2) (val_main_v13 (F := Ideal))
      concatenates_S8192x4096x1_S8192x4096x1_S8192x4096x2_d2
      (ix3 b (⟨c.val / 2, by omega⟩ : Fin 4096) (⟨0, by omega⟩ : Fin 2)) rfl
      (ix3 b (⟨c.val / 2, by omega⟩ : Fin 4096) (⟨0, by omega⟩ : Fin 1)) (fun a => by
        match a with
        | ⟨0, _⟩ => rfl
        | ⟨1, _⟩ => rfl
        | ⟨2, _⟩ => rfl)).trans ?_
    have e12 : idx_main_v12 (ix3 b (⟨c.val / 2, by omega⟩ : Fin 4096) (⟨0, by omega⟩ : Fin 1))
        = ix2 b (⟨c.val / 2, by omega⟩ : Fin 4096) :=
      funext fun a => Fin.ext (by match a with | ⟨0, _⟩ => rfl | ⟨1, _⟩ => rfl)
    rw [val_main_v12_apply, e12, v10_at]
  · -- an odd column: place 1 of pair `c / 2`, the zero
    have ei : idx_main_v15 (ix3 b c u)
        = ix3 b (⟨c.val / 2, by omega⟩ : Fin 4096) (⟨1, by omega⟩ : Fin 2) :=
      funext fun a => Fin.ext (by
        match a with
        | ⟨0, _⟩ => show ((b.val * 8192 + c.val) * 1 + u.val) / 8192 = b.val; omega
        | ⟨1, _⟩ => show ((b.val * 8192 + c.val) * 1 + u.val) / 2 % 4096 = c.val / 2; omega
        | ⟨2, _⟩ => show ((b.val * 8192 + c.val) * 1 + u.val) % 2 = 1; omega)
    rw [ei, fold2_odd _ _ _ _ _ hpar]
    unfold val_main_v14
    refine (concatenate_pair_apply_right (t := S8192x4096x2) (s₁ := S8192x4096x1) (s₂ := S8192x4096x1) 2
      (val_main_v12 (F := Ideal) x0 x1 x2) (val_main_v13 (F := Ideal))
      concatenates_S8192x4096x1_S8192x4096x1_S8192x4096x2_d2
      (ix3 b (⟨c.val / 2, by omega⟩ : Fin 4096) (⟨1, by omega⟩ : Fin 2)) rfl rfl
      (ix3 b (⟨c.val / 2, by omega⟩ : Fin 4096) (⟨0, by omega⟩ : Fin 1)) (fun a ha => by
        match a with
        | ⟨0, _⟩ => rfl
        | ⟨1, _⟩ => rfl
        | ⟨2, _⟩ => exact absurd rfl ha) rfl).trans ?_
    exact v13_at _

end Cert.FoldRef

end
-- ==== Proof.lean ====
/-
  A per-sample dense layer folded in halves: from samples `x : [8192, 4096]`, weights `w : [8192, 2048]` and a bias
  `[8192]`, take the odd columns of each sample, apply the layer with a ReLU, subtract the second half of the units from the
  first, and interleave the result with a zero channel, as `[8192, 8192, 1]`.

  The kernel does it on a 4 × 8 grid of tiles — two matrix products per tile against the two halves of the weights, the
  interleave done on the tile — between host operations that cut the arguments and add the trailing axis; the reference
  does it with one whole matrix product, two slices and a stack. Read at the ideal values (exact extended reals, a change
  of float format the identity) both are the function `Cert.FoldSpec.fold3` of the arguments, entry by entry: the same
  finite sum in each unit, the same maximum with zero, the same difference; nothing is regrouped across an infinity, so
  the precondition is never opened.

  * Proof/Spec.lean      — the function, over whole arrays (`fold2`, `fold3`) and on one tile (`tile`);
  * Proof/Payload.lean   — the kernel body's arithmetic is `tile` of the blocks it loads;
  * Proof/Blocks.lean    — a grid point writes back the block of one whole-array function, the blocks cover the
                           output, so the output array ends at that function;
  * Proof/Host.lean      — the host's cuts before the region and the reshape after it, read at an index; the kernel's
                           run with its result named;
  * Proof/RefValue.lean  — the reference's result is `fold3`.
  The three frames are the generated ones (the reference's is its generated run with the result dropped), and the ideal
  pass rewrote nothing, so `preserves` is trivial.
-/
import proofs.«150573_j68710886802317_2_alg».proof.Defs
import proofs.«150573_j68710886802317_2_alg».proof.Proof.Gen.Kernel
import proofs.«150573_j68710886802317_2_alg».proof.Proof.Gen.Kernel.Frame
import proofs.«150573_j68710886802317_2_alg».proof.Proof.Gen.KernelIdeal
import proofs.«150573_j68710886802317_2_alg».proof.Proof.Gen.KernelIdeal.Frame
import proofs.«150573_j68710886802317_2_alg».proof.Proof.Gen.ReferenceIdeal
import proofs.«150573_j68710886802317_2_alg».proof.Proof.Gen.ReferenceIdeal.Run
import proofs.«150573_j68710886802317_2_alg».proof.Proof.Gen.ReferenceIdeal.Read
import proofs.«150573_j68710886802317_2_alg».proof.Proof.Gen.Pre_finite_inputs
import proofs.«150573_j68710886802317_2_alg».proof.Proof.Host
import proofs.«150573_j68710886802317_2_alg».proof.Proof.RefValue
import Idealize.ShloMosaic.Adequacy
import Idealize.ShloMosaic.Init

noncomputable section

namespace Cert.Proof

open Idealize.ShloMosaic Idealize.SL.Sem

/-- The printed kernel terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with `fold3` of the arguments in their result buffers. -/
theorem algebraic : Cert.algebraic_KernelIdeal_ReferenceIdeal := by
  intro m ρ m' ρ' _ hagree
  refine ⟨_, Cert.FoldFrame.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.FoldRef.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
